-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192x16 : Shape := ⟨3, ![128, 8192, 16]⟩
abbrev S16 : Shape := ⟨1, ![16]⟩
abbrev S64x16 : Shape := ⟨2, ![64, 16]⟩
abbrev S64 : Shape := ⟨1, ![64]⟩
abbrev S16x64 : Shape := ⟨2, ![16, 64]⟩
abbrev S_ : Shape := ⟨0, ![]⟩

class Facts : Prop where
  bcast_S_S128x8192x16 : S_.BroadcastsInDim S128x8192x16 (![] : Fin 0 → Fin S128x8192x16.rank)
  reducesTo_S128x8192x16_S_d0_1_2 : S128x8192x16.ReducesTo [0, 1, 2] S_
  h_S_ : 0 < S_.numel
  bcast_S_S16 : S_.BroadcastsInDim S16 (![] : Fin 0 → Fin S16.rank)
  reducesTo_S16_S_d0 : S16.ReducesTo [0] S_
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_arg4 : FVec F S64 .f32) (main_arg5 : FVec F S16x64 .f32) (main_arg6 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S16x64 .f32 := Host.absf main_arg5
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S128x8192x16 .f32) (main_arg1 : FVec F S16 .f32) (main_arg2 : FVec F S16 .f32) (main_arg3 : FVec F S64x16 .f32) (main_arg4 : FVec F S64 .f32) (main_arg5 : FVec F S16x64 .f32) (main_arg6 : FVec F S16 .f32) : IVec S_ 1 :=
  let main_v0 : FVec F S128x8192x16 .f32 := Host.absf main_arg0
  let main_cst : FVec F S_ .f32 := constant S_ .f32 0x7F800000#32
  let main_v1 : FVec F S128x8192x16 .f32 := broadcastInDim S128x8192x16 ![] bcast_S_S128x8192x16 main_cst
  let main_v2 : IVec S128x8192x16 1 := cmpf .olt main_v0 main_v1
  let main_c : IVec S_ 1 := constantI S_ 1 1#1
  let main_v3 : IVec S_ 1 := (fun x v => Host.reduce IntOp.andi x v reducesTo_S128x8192x16_S_d0_1_2 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_arg5 main_arg6 main_v13 main_v16
-- ==== Kernel.lean ====
abbrev S128x8192x16 : Shape := ⟨3, ![128, 8192, 16]⟩
abbrev S16 : Shape := ⟨1, ![16]⟩
abbrev S64x16 : Shape := ⟨2, ![64, 16]⟩
abbrev S64 : Shape := ⟨1, ![64]⟩
abbrev S16x64 : Shape := ⟨2, ![16, 64]⟩
abbrev S1048576x16 : Shape := ⟨2, ![1048576, 16]⟩
abbrev S65536x16 : Shape := ⟨2, ![65536, 16]⟩
abbrev S65536 : Shape := ⟨1, ![65536]⟩
abbrev S65536x1 : Shape := ⟨2, ![65536, 1]⟩
abbrev S1x16 : Shape := ⟨2, ![1, 16]⟩
abbrev S65536x64 : Shape := ⟨2, ![65536, 64]⟩
abbrev S1x64 : Shape := ⟨2, ![1, 64]⟩

abbrev nBuf : Space → Nat
  | .hbm => 12
  | .vmem => 10
  | .smem => 0
  | _ => 0

abbrev bufTy : (tb : Table) → Fin (tcTables nBuf tb) → BufTy
  | .hbm, ⟨0, _⟩ => ⟨S128x8192x16, .f32⟩
  | .hbm, ⟨1, _⟩ => ⟨S16, .f32⟩
  | .hbm, ⟨2, _⟩ => ⟨S16, .f32⟩
  | .hbm, ⟨3, _⟩ => ⟨S64x16, .f32⟩
  | .hbm, ⟨4, _⟩ => ⟨S64, .f32⟩
  | .hbm, ⟨5, _⟩ => ⟨S16x64, .f32⟩
  | .hbm, ⟨6, _⟩ => ⟨S16, .f32⟩
  | .hbm, ⟨7, _⟩ => ⟨S1048576x16, .f32⟩
  | .hbm, ⟨8, _⟩ => ⟨S16x64, .f32⟩
  | .hbm, ⟨9, _⟩ => ⟨S64x16, .f32⟩
  | .hbm, ⟨10, _⟩ => ⟨S1048576x16, .f32⟩
  | .hbm, ⟨11, _⟩ => ⟨S128x8192x16, .f32⟩
  | .local _ .vmem, ⟨0, _⟩ => ⟨S65536x16, .f32⟩
  | .local _ .vmem, ⟨1, _⟩ => ⟨S65536x16, .f32⟩
  | .local _ .vmem, ⟨2, _⟩ => ⟨S16, .f32⟩
  | .local _ .vmem, ⟨3, _⟩ => ⟨S16, .f32⟩
  | .local _ .vmem, ⟨4, _⟩ => ⟨S16x64, .f32⟩
  | .local _ .vmem, ⟨5, _⟩ => ⟨S64, .f32⟩
  | .local _ .vmem, ⟨6, _⟩ => ⟨S64x16, .f32⟩
  | .local _ .vmem, ⟨7, _⟩ => ⟨S16, .f32⟩
  | .local _ .vmem, ⟨8, _⟩ => ⟨S65536x16, .f32⟩
  | .local _ .vmem, ⟨9, _⟩ => ⟨S65536x16, .f32⟩
  | _, _ => ⟨S128x8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S65536x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S65536x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S128x8192x16_S1048576x16 : S128x8192x16.ShapeCasts S1048576x16
  transposes_S64x16_S16x64_1_0 : S64x16.Transposes [1, 0] S16x64
  transposes_S16x64_S64x16_1_0 : S16x64.Transposes [1, 0] S64x16
  inb_S65536x16_S65536x16_0_0 : ∀ a, (![0, 0] : Fin 2 → Nat) a + S65536x16.size a ≤ S65536x16.size a
  h_S65536x16 : 0 < S65536x16.numel
  shapeCasts_S65536x16_S65536x16 : S65536x16.ShapeCasts S65536x16
  reduces_S65536x16_S65536 : S65536x16.Reduces [1] S65536
  shapeCasts_S65536_S65536x1 : S65536.ShapeCasts S65536x1
  broadcasts_S65536x1_S65536x16 : S65536x1.Broadcasts S65536x16
  inb_S16_S16_0 : ∀ a, (![0] : Fin 1 → Nat) a + S16.size a ≤ S16.size a
  h_S16 : 0 < S16.numel
  shapeCasts_S16_S1x16 : S16.ShapeCasts S1x16
  broadcasts_S1x16_S65536x16 : S1x16.Broadcasts S65536x16
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S64_S64_0 : ∀ a, (![0] : Fin 1 → Nat) a + S64.size a ≤ S64.size a
  h_S64 : 0 < S64.numel
  shapeCasts_S64_S1x64 : S64.ShapeCasts S1x64
  broadcasts_S1x64_S65536x64 : S1x64.Broadcasts S65536x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  shapeCasts_S1048576x16_S128x8192x16 : S1048576x16.ShapeCasts S128x8192x16
  dot_S65536x16_S16x64_S65536x64_1_0_0_1_n_n_wf : DotDims.WF S65536x16 S16x64 S65536x64 [1] [0] [0] [1] [] []
  dot_S65536x64_S64x16_S65536x16_1_0_0_1_n_n_wf : DotDims.WF S65536x64 S64x16 S65536x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S65536x16.size a ≤ S1048576x16.size a
  hwx0_0 : ∀ i : grid0.Coords, EltTy.bits .f32 = 32 ∨ (Rect.block (s := S1048576x16) S65536x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16.size a ≤ S16.size a
  hwx0_1 : ∀ i : grid0.Coords, EltTy.bits .f32 = 32 ∨ (Rect.block (s := S16) S16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x16.size a ≤ S64x16.size a
  hwx0_5 : ∀ i : grid0.Coords, EltTy.bits .f32 = 32 ∨ (Rect.block (s := S64x16) S64x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S65536x16.size a ≤ S1048576x16.size a
  hwx0_7 : ∀ i : grid0.Coords, EltTy.bits .f32 = 32 ∨ (Rect.block (s := S1048576x16) S65536x16.size (cc0_transform_7 i) (hinb0_7 i)).WholeWords (EltTy.packing .f32)

variable [Facts₀]

def dot_S65536x16_S16x64_S65536x64_1_0_0_1_n_n : DotDims S65536x16 S16x64 S65536x64 where
  lhsContracting := [1]
  rhsContracting := [0]
  lhsNonContracting := [0]
  rhsNonContracting := [1]
  lhsBatch := []
  rhsBatch := []
  wf := dot_S65536x16_S16x64_S65536x64_1_0_0_1_n_n_wf
def dot_S65536x64_S64x16_S65536x16_1_0_0_1_n_n : DotDims S65536x64 S64x16 S65536x16 where
  lhsContracting := [1]
  rhsContracting := [0]
  lhsNonContracting := [0]
  rhsNonContracting := [1]
  lhsBatch := []
  rhsBatch := []
  wf := dot_S65536x64_S64x16_S65536x16_1_0_0_1_n_n_wf

abbrev win0_0 : Pipeline.Window sig grid0 :=
  Pipeline.Window.ofSpec (Memref.whole main_v0) S65536x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S64x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S65536x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S128x8192x16 : Shape := ⟨3, ![128, 8192, 16]⟩
abbrev S16 : Shape := ⟨1, ![16]⟩
abbrev S64x16 : Shape := ⟨2, ![64, 16]⟩
abbrev S64 : Shape := ⟨1, ![64]⟩
abbrev S16x64 : Shape := ⟨2, ![16, 64]⟩
abbrev S_ : Shape := ⟨0, ![]⟩
abbrev S128x8192 : Shape := ⟨2, ![128, 8192]⟩
abbrev S128x8192x1 : Shape := ⟨3, ![128, 8192, 1]⟩
abbrev S1x1x16 : Shape := ⟨3, ![1, 1, 16]⟩
abbrev S128x8192x64 : Shape := ⟨3, ![128, 8192, 64]⟩
abbrev S1x1x64 : Shape := ⟨3, ![1, 1, 64]⟩

abbrev nBuf : Space → Nat
  | .hbm => 48
  | .vmem => 0
  | .smem => 0
  | _ => 0

abbrev bufTy : (tb : Table) → Fin (tcTables nBuf tb) → BufTy
  | .hbm, ⟨0, _⟩ => ⟨S128x8192x16, .f32⟩
  | .hbm, ⟨1, _⟩ => ⟨S16, .f32⟩
  | .hbm, ⟨2, _⟩ => ⟨S16, .f32⟩
  | .hbm, ⟨3, _⟩ => ⟨S64x16, .f32⟩
  | .hbm, ⟨4, _⟩ => ⟨S64, .f32⟩
  | .hbm, ⟨5, _⟩ => ⟨S16x64, .f32⟩
  | .hbm, ⟨6, _⟩ => ⟨S16, .f32⟩
  | .hbm, ⟨7, _⟩ => ⟨S_, .f32⟩
  | .hbm, ⟨8, _⟩ => ⟨S128x8192, .f32⟩
  | .hbm, ⟨9, _⟩ => ⟨S128x8192x1, .f32⟩
  | .hbm, ⟨10, _⟩ => ⟨S_, .f32⟩
  | .hbm, ⟨11, _⟩ => ⟨S128x8192x1, .f32⟩
  | .hbm, ⟨12, _⟩ => ⟨S128x8192x1, .f32⟩
  | .hbm, ⟨13, _⟩ => ⟨S128x8192x16, .f32⟩
  | .hbm, ⟨14, _⟩ => ⟨S128x8192x16, .f32⟩
  | .hbm, ⟨15, _⟩ => ⟨S128x8192x16, .f32⟩
  | .hbm, ⟨16, _⟩ => ⟨S_, .f32⟩
  | .hbm, ⟨17, _⟩ => ⟨S128x8192, .f32⟩
  | .hbm, ⟨18, _⟩ => ⟨S128x8192x1, .f32⟩
  | .hbm, ⟨19, _⟩ => ⟨S_, .f32⟩
  | .hbm, ⟨20, _⟩ => ⟨S128x8192x1, .f32⟩
  | .hbm, ⟨21, _⟩ => ⟨S128x8192x1, .f32⟩
  | .hbm, ⟨22, _⟩ => ⟨S128x8192x16, .f32⟩
  | .hbm, ⟨23, _⟩ => ⟨S128x8192x16, .f32⟩
  | .hbm, ⟨24, _⟩ => ⟨S_, .f32⟩
  | .hbm, ⟨25, _⟩ => ⟨S128x8192x1, .f32⟩
  | .hbm, ⟨26, _⟩ => ⟨S128x8192x1, .f32⟩
  | .hbm, ⟨27, _⟩ => ⟨S128x8192x1, .f32⟩
  | .hbm, ⟨28, _⟩ => ⟨S128x8192x16, .f32⟩
  | .hbm, ⟨29, _⟩ => ⟨S128x8192x16, .f32⟩
  | .hbm, ⟨30, _⟩ => ⟨S1x1x16, .f32⟩
  | .hbm, ⟨31, _⟩ => ⟨S128x8192x16, .f32⟩
  | .hbm, ⟨32, _⟩ => ⟨S128x8192x16, .f32⟩
  | .hbm, ⟨33, _⟩ => ⟨S1x1x16, .f32⟩
  | .hbm, ⟨34, _⟩ => ⟨S128x8192x16, .f32⟩
  | .hbm, ⟨35, _⟩ => ⟨S128x8192x16, .f32⟩
  | .hbm, ⟨36, _⟩ => ⟨S128x8192x64, .f32⟩
  | .hbm, ⟨37, _⟩ => ⟨S1x1x64, .f32⟩
  | .hbm, ⟨38, _⟩ => ⟨S128x8192x64, .f32⟩
  | .hbm, ⟨39, _⟩ => ⟨S128x8192x64, .f32⟩
  | .hbm, ⟨40, _⟩ => ⟨S_, .f32⟩
  | .hbm, ⟨41, _⟩ => ⟨S128x8192x64, .f32⟩
  | .hbm, ⟨42, _⟩ => ⟨S128x8192x64, .f32⟩
  | .hbm, ⟨43, _⟩ => ⟨S128x8192x16, .f32⟩
  | .hbm, ⟨44, _⟩ => ⟨S1x1x16, .f32⟩
  | .hbm, ⟨45, _⟩ => ⟨S128x8192x16, .f32⟩
  | .hbm, ⟨46, _⟩ => ⟨S128x8192x16, .f32⟩
  | .hbm, ⟨47, _⟩ => ⟨S128x8192x16, .f32⟩
  | _, _ => ⟨S128x8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  reducesTo_S128x8192x16_S128x8192_d2 : S128x8192x16.ReducesTo [2] S128x8192
  h_S_ : 0 < S_.numel
  bcast_S128x8192_S128x8192x1_0_1 : S128x8192.BroadcastsInDim S128x8192x1 (![0, 1] : Fin 2 → Fin S128x8192x1.rank)
  bcast_S_S128x8192x1 : S_.BroadcastsInDim S128x8192x1 (![] : Fin 0 → Fin S128x8192x1.rank)
  bcast_S128x8192x1_S128x8192x16_0_1_2 : S128x8192x1.BroadcastsInDim S128x8192x16 (![0, 1, 2] : Fin 3 → Fin S128x8192x16.rank)
  bcast_S16_S1x1x16_2 : S16.BroadcastsInDim S1x1x16 (![2] : Fin 1 → Fin S1x1x16.rank)
  bcast_S1x1x16_S128x8192x16_0_1_2 : S1x1x16.BroadcastsInDim S128x8192x16 (![0, 1, 2] : Fin 3 → Fin S128x8192x16.rank)
  bcast_S64_S1x1x64_2 : S64.BroadcastsInDim S1x1x64 (![2] : Fin 1 → Fin S1x1x64.rank)
  bcast_S1x1x64_S128x8192x64_0_1_2 : S1x1x64.BroadcastsInDim S128x8192x64 (![0, 1, 2] : Fin 3 → Fin S128x8192x64.rank)
  bcast_S_S128x8192x64 : S_.BroadcastsInDim S128x8192x64 (![] : Fin 0 → Fin S128x8192x64.rank)
  dot_S128x8192x16_S64x16_S128x8192x64_2_1_01_0_n_n_wf : DotDims.WF S128x8192x16 S64x16 S128x8192x64 [2] [1] [0, 1] [0] [] []
  dot_S128x8192x64_S16x64_S128x8192x16_2_1_01_0_n_n_wf : DotDims.WF S128x8192x64 S16x64 S128x8192x16 [2] [1] [0, 1] [0] [] []

variable [Facts₀]

def dot_S128x8192x16_S64x16_S128x8192x64_2_1_01_0_n_n : DotDims S128x8192x16 S64x16 S128x8192x64 where
  lhsContracting := [2]
  rhsContracting := [1]
  lhsNonContracting := [0, 1]
  rhsNonContracting := [0]
  lhsBatch := []
  rhsBatch := []
  wf := dot_S128x8192x16_S64x16_S128x8192x64_2_1_01_0_n_n_wf
def dot_S128x8192x64_S16x64_S128x8192x16_2_1_01_0_n_n : DotDims S128x8192x64 S16x64 S128x8192x16 where
  lhsContracting := [2]
  rhsContracting := [1]
  lhsNonContracting := [0, 1]
  rhsNonContracting := [0]
  lhsBatch := []
  rhsBatch := []
  wf := dot_S128x8192x64_S16x64_S128x8192x16_2_1_01_0_n_n_wf

class Facts : Prop extends Facts₀ where

variable [Facts]
-- ==== Proof.FfnRow.lean ====
/-
  One row of a pre-norm feed-forward layer, on the extended reals.

  A row `r` of sixteen entries is normalised — its mean `(∑ r) / 16` is taken off, the centred row is scaled by
  `rsqrt (var + ε)` where `var = (∑ centred²) / 16`, then by `γ` entry by entry, and `β` is added —; the
  normalised row goes through a hidden layer of sixty-four units, `max (⟨normed, w1 d⟩ + b1 d) 0`; the hidden row
  is projected back to sixteen entries, `⟨hidden, w2 c⟩ + b2 c`; and the result is added to the row itself.

  Every operation is the exact one of the ideal values: the quotient is `Ideal.div`, the reciprocal square root
  `Ideal.rsqrt`, and the three constants (sixteen, ε, the zero the hidden layer is cut off at) are kept as the
  binary words both programs spell, so that no constant is ever evaluated. The sums are plain finite sums, in
  which neither an order nor a grouping is left.

  `ffn` is the layer over a whole `128 × 8192 × 16` array: entry `(b, t, c)` is entry `c` of the layer's
  value at row `(b, t)`.
-/
import Idealize.ShloMosaic.PureOps.Ideal
import Idealize.ShloMosaic.Lib.ValueIdx

noncomputable section

open scoped BigOperators

namespace Cert.FfnRow

open Idealize.ShloMosaic Idealize.ShloMosaic.ValueIdx

/-- The row's length, sixteen, as the word both programs divide by. -/
abbrev width : EReal := Ideal.ofBits .f32 0x41800000#32
/-- The word added to the variance before the reciprocal square root. -/
abbrev eps : EReal := Ideal.ofBits .f32 0x3727C5AC#32
/-- The word the hidden layer is cut off at from below: zero. -/
abbrev floor0 : EReal := Ideal.ofBits .f32 0x00000000#32

/-- The mean of a row. -/
def mean (r : Fin 16 → EReal) : EReal := Ideal.div (∑ k : Fin 16, r k) width

/-- The row with its mean taken off. -/
def centred (r : Fin 16 → EReal) (k : Fin 16) : EReal := r k - mean r

/-- The mean of the squares of the centred row. -/
def variance (r : Fin 16 → EReal) : EReal := Ideal.div (∑ k : Fin 16, centred r k * centred r k) width

/-- The normalised row: centred, scaled by `rsqrt (variance + ε)` and by `γ`, shifted by `β`. -/
def normed (r γ β : Fin 16 → EReal) (k : Fin 16) : EReal :=
  centred r k * Ideal.rsqrt (variance r + eps) * γ k + β k

/-- The hidden layer: unit `d` is the inner product of the normalised row with row `d` of `w1`, plus `b1 d`,
    cut off at zero from below. -/
def hidden (r γ β : Fin 16 → EReal) (w1 : Fin 64 → Fin 16 → EReal) (b1 : Fin 64 → EReal) (d : Fin 64) : EReal :=
  max ((∑ k : Fin 16, normed r γ β k * w1 d k) + b1 d) floor0

/-- The layer's value at a row: entry `c` is the row's entry plus the inner product of the hidden row with row
    `c` of `w2`, plus `b2 c`. -/
def out (r γ β : Fin 16 → EReal) (w1 : Fin 64 → Fin 16 → EReal) (b1 : Fin 64 → EReal)
    (w2 : Fin 16 → Fin 64 → EReal) (b2 : Fin 16 → EReal) (c : Fin 16) : EReal :=
  r c + ((∑ d : Fin 64, hidden r γ β w1 b1 d * w2 c d) + b2 c)

/-- The layer over the whole array: entry `(b, t, c)` is entry `c` of the layer's value at row `(b, t)`. -/
def ffn (x : (⟨3, ![128, 8192, 16]⟩ : Shape).Idx → EReal) (γ β : (⟨1, ![16]⟩ : Shape).Idx → EReal)
    (w1 : (⟨2, ![64, 16]⟩ : Shape).Idx → EReal) (b1 : (⟨1, ![64]⟩ : Shape).Idx → EReal)
    (w2 : (⟨2, ![16, 64]⟩ : Shape).Idx → EReal) (b2 : (⟨1, ![16]⟩ : Shape).Idx → EReal) :
    (⟨3, ![128, 8192, 16]⟩ : Shape).Idx → EReal :=
  fun i => out (fun k => x (ix3 (i 0) (i 1) k)) (fun k => γ (ix1 k)) (fun k => β (ix1 k))
    (fun d k => w1 (ix2 d k)) (fun d => b1 (ix1 d)) (fun c d => w2 (ix2 c d)) (fun c => b2 (ix1 c)) (i 2)

theorem ffn_apply (x : (⟨3, ![128, 8192, 16]⟩ : Shape).Idx → EReal) (γ β : (⟨1, ![16]⟩ : Shape).Idx → EReal)
    (w1 : (⟨2, ![64, 16]⟩ : Shape).Idx → EReal) (b1 : (⟨1, ![64]⟩ : Shape).Idx → EReal)
    (w2 : (⟨2, ![16, 64]⟩ : Shape).Idx → EReal) (b2 : (⟨1, ![16]⟩ : Shape).Idx → EReal)
    (b : Fin 128) (t : Fin 8192) (c : Fin 16) :
    ffn x γ β w1 b1 w2 b2 (ix3 b t c)
      = out (fun k => x (ix3 b t k)) (fun k => γ (ix1 k)) (fun k => β (ix1 k))
          (fun d k => w1 (ix2 d k)) (fun d => b1 (ix1 d)) (fun c d => w2 (ix2 c d)) (fun c => b2 (ix1 c)) c := rfl

end Cert.FfnRow

end
-- ==== Proof.RefRow.lean ====
/-
  The reference's last stage is the feed-forward layer of `FfnRow`, entry by entry.

  The reference computes over the whole `128 × 8192 × 16` array at once; each of its operations, read at an
  entry, touches only row `(b, t)` of the input: a sum along the last axis, a value per row spread back over the
  sixteen lanes, a vector of parameters spread over all rows, a contraction of the last axis with a weight
  matrix's last axis. So every intermediate array, read at `(b, t, ·)`, is one quantity of that row — its mean,
  the centred row, the variance, the normalised row, the hidden row, the output row — in exactly the spelling of
  `FfnRow`; the only step that is not a restatement is that the host's sum starts from the zero word, which
  is the extended real `0`.
-/
import proofs.«157154_j36867999269234_1_alg».proof.Proof.Gen.ReferenceIdeal.Read
import proofs.«157154_j36867999269234_1_alg».proof.Proof.FfnRow

noncomputable section

open scoped BigOperators

namespace Cert.ReferenceIdeal.RefRow

open Cert.ReferenceIdeal Cert.ReferenceIdeal.Read Idealize.ShloMosaic Idealize.ShloMosaic.ValueIdx Cert.FfnRow

/-! ## The index functions of the stages, at an entry of row `(b, t)` -/

section Indices

variable (b : Fin 128) (t : Fin 8192)

theorem row_of_col1 : idx_main_v1 (ix3 b t (0 : Fin 1)) = ix2 b t :=
  funext fun a => by match a with | ⟨0, _⟩ => rfl | ⟨1, _⟩ => rfl
theorem entry_of_row0 (k : Fin 16) : idx_main_v0 (ix2 b t) k = ix3 b t k :=
  funext fun a => by match a with | ⟨0, _⟩ => rfl | ⟨1, _⟩ => rfl | ⟨2, _⟩ => rfl
theorem col_of_entry4 (k : Fin 16) : idx_main_v4 (ix3 b t k) = ix3 b t (0 : Fin 1) :=
  funext fun a => by match a with | ⟨0, _⟩ => rfl | ⟨1, _⟩ => rfl | ⟨2, _⟩ => rfl
theorem row_of_col8 : idx_main_v8 (ix3 b t (0 : Fin 1)) = ix2 b t :=
  funext fun a => by match a with | ⟨0, _⟩ => rfl | ⟨1, _⟩ => rfl
theorem entry_of_row7 (k : Fin 16) : idx_main_v7 (ix2 b t) k = ix3 b t k :=
  funext fun a => by match a with | ⟨0, _⟩ => rfl | ⟨1, _⟩ => rfl | ⟨2, _⟩ => rfl
theorem col_of_entry11 (k : Fin 16) : idx_main_v11 (ix3 b t k) = ix3 b t (0 : Fin 1) :=
  funext fun a => by match a with | ⟨0, _⟩ => rfl | ⟨1, _⟩ => rfl | ⟨2, _⟩ => rfl
theorem col_of_entry16 (k : Fin 16) : idx_main_v16 (ix3 b t k) = ix3 b t (0 : Fin 1) :=
  funext fun a => by match a with | ⟨0, _⟩ => rfl | ⟨1, _⟩ => rfl | ⟨2, _⟩ => rfl
theorem lane_of_entry19 (k : Fin 16) : idx_main_v19 (ix3 b t k) = ix3 (0 : Fin 1) (0 : Fin 1) k :=
  funext fun a => by match a with | ⟨0, _⟩ => rfl | ⟨1, _⟩ => rfl | ⟨2, _⟩ => rfl
theorem lane_of_entry22 (k : Fin 16) : idx_main_v22 (ix3 b t k) = ix3 (0 : Fin 1) (0 : Fin 1) k :=
  funext fun a => by match a with | ⟨0, _⟩ => rfl | ⟨1, _⟩ => rfl | ⟨2, _⟩ => rfl
theorem lane_of_entry31 (k : Fin 16) : idx_main_v31 (ix3 b t k) = ix3 (0 : Fin 1) (0 : Fin 1) k :=
  funext fun a => by match a with | ⟨0, _⟩ => rfl | ⟨1, _⟩ => rfl | ⟨2, _⟩ => rfl
theorem lane_of_entry26 (d : Fin 64) : idx_main_v26 (ix3 b t d) = ix3 (0 : Fin 1) (0 : Fin 1) d :=
  funext fun a => by match a with | ⟨0, _⟩ => rfl | ⟨1, _⟩ => rfl | ⟨2, _⟩ => rfl
theorem left24 (d : Fin 64) (k : Fin 16) : lidx_main_v24 (ix3 b t d) k = ix3 b t k :=
  funext fun a => by match a with | ⟨0, _⟩ => rfl | ⟨1, _⟩ => rfl | ⟨2, _⟩ => rfl
theorem right24 (d : Fin 64) (k : Fin 16) : ridx_main_v24 (ix3 b t d) k = ix2 d k :=
  funext fun a => by match a with | ⟨0, _⟩ => rfl | ⟨1, _⟩ => rfl
theorem left29 (c : Fin 16) (d : Fin 64) : lidx_main_v29 (ix3 b t c) d = ix3 b t d :=
  funext fun a => by match a with | ⟨0, _⟩ => rfl | ⟨1, _⟩ => rfl | ⟨2, _⟩ => rfl
theorem right29 (c : Fin 16) (d : Fin 64) : ridx_main_v29 (ix3 b t c) d = ix2 c d :=
  funext fun a => by match a with | ⟨0, _⟩ => rfl | ⟨1, _⟩ => rfl

end Indices

theorem vec_of_lane18 (k : Fin 16) : idx_main_v18 (ix3 (0 : Fin 1) (0 : Fin 1) k) = ix1 k :=
  funext fun a => by match a with | ⟨0, _⟩ => rfl
theorem vec_of_lane21 (k : Fin 16) : idx_main_v21 (ix3 (0 : Fin 1) (0 : Fin 1) k) = ix1 k :=
  funext fun a => by match a with | ⟨0, _⟩ => rfl
theorem vec_of_lane30 (k : Fin 16) : idx_main_v30 (ix3 (0 : Fin 1) (0 : Fin 1) k) = ix1 k :=
  funext fun a => by match a with | ⟨0, _⟩ => rfl
theorem vec_of_lane25 (d : Fin 64) : idx_main_v25 (ix3 (0 : Fin 1) (0 : Fin 1) d) = ix1 d :=
  funext fun a => by match a with | ⟨0, _⟩ => rfl

/-! ## The stages at row `(b, t)` -/

variable (x0 : (⟨S128x8192x16, .f32⟩ : BufTy).Contents (Elt Ideal))
  (x1 x2 : (⟨S16, .f32⟩ : BufTy).Contents (Elt Ideal)) (x3 : (⟨S64x16, .f32⟩ : BufTy).Contents (Elt Ideal))
  (x4 : (⟨S64, .f32⟩ : BufTy).Contents (Elt Ideal)) (x5 : (⟨S16x64, .f32⟩ : BufTy).Contents (Elt Ideal))
  (x6 : (⟨S16, .f32⟩ : BufTy).Contents (Elt Ideal)) (b : Fin 128) (t : Fin 8192)

/-- The column of row means, at row `(b, t)`: the host's sum starts from the zero word. -/
theorem mean_at : val_main_v3 (F := Ideal) x0 (ix3 b t (0 : Fin 1)) = mean (fun k => x0 (ix3 b t k)) := by
  rw [val_main_v3_apply, val_main_v1_apply, row_of_col1, val_main_v0_apply, val_main_v2_apply]
  simp only [entry_of_row0]
  show Ideal.div (Ideal.ofBits .f32 0x00000000#32 + ∑ k : Fin 16, x0 (ix3 b t k)) (Ideal.ofBits .f32 0x41800000#32) = _
  rw [Ideal.ofBits_zero_f32, zero_add]
  rfl

/-- The centred array at `(b, t, k)`, as the reference first computes it (for the variance). -/
theorem centred_at (k : Fin 16) :
    val_main_v5 (F := Ideal) x0 (ix3 b t k) = centred (fun k => x0 (ix3 b t k)) k := by
  rw [val_main_v5_apply, val_main_v4_apply, col_of_entry4, mean_at]
  rfl

/-- The centred array at `(b, t, k)`, as the reference computes it again (for the normalised row). -/
theorem centred_at' (k : Fin 16) :
    val_main_v12 (F := Ideal) x0 (ix3 b t k) = centred (fun k => x0 (ix3 b t k)) k := by
  rw [val_main_v12_apply, val_main_v11_apply, col_of_entry11, mean_at]
  rfl

/-- The column of row variances, at row `(b, t)`. -/
theorem variance_at : val_main_v10 (F := Ideal) x0 (ix3 b t (0 : Fin 1)) = variance (fun k => x0 (ix3 b t k)) := by
  rw [val_main_v10_apply, val_main_v8_apply, row_of_col8, val_main_v7_apply, val_main_v9_apply]
  simp only [entry_of_row7, val_main_v6_apply, centred_at]
  show Ideal.div (Ideal.ofBits .f32 0x00000000#32
      + ∑ k : Fin 16, centred (fun k => x0 (ix3 b t k)) k * centred (fun k => x0 (ix3 b t k)) k)
    (Ideal.ofBits .f32 0x41800000#32) = _
  rw [Ideal.ofBits_zero_f32, zero_add]
  rfl

/-- The normalised array at `(b, t, k)`. -/
theorem normed_at (k : Fin 16) :
    val_main_v23 (F := Ideal) x0 x1 x2 (ix3 b t k)
      = normed (fun k => x0 (ix3 b t k)) (fun k => x1 (ix1 k)) (fun k => x2 (ix1 k)) k := by
  rw [val_main_v23_apply, val_main_v20_apply, val_main_v17_apply, centred_at', val_main_v16_apply, col_of_entry16,
    val_main_v15_apply, val_main_v14_apply, variance_at, val_main_v13_apply, val_main_v19_apply, lane_of_entry19,
    val_main_v18_apply, vec_of_lane18, val_main_v22_apply, lane_of_entry22, val_main_v21_apply, vec_of_lane21]
  rfl

/-- The hidden array at `(b, t, d)`. -/
theorem hidden_at (d : Fin 64) :
    val_main_v28 (F := Ideal) x0 x1 x2 x3 x4 (ix3 b t d)
      = hidden (fun k => x0 (ix3 b t k)) (fun k => x1 (ix1 k)) (fun k => x2 (ix1 k))
          (fun d k => x3 (ix2 d k)) (fun d => x4 (ix1 d)) d := by
  rw [val_main_v28_apply, val_main_v27_apply, val_main_v24_apply, val_main_v26_apply, lane_of_entry26,
    val_main_v25_apply, vec_of_lane25, val_main_call0_v0_apply]
  simp only [left24, right24, normed_at]
  rfl

/-- The result array at `(b, t, c)`. -/
theorem out_at (c : Fin 16) :
    val_main_v33 (F := Ideal) x0 x1 x2 x3 x4 x5 x6 (ix3 b t c)
      = out (fun k => x0 (ix3 b t k)) (fun k => x1 (ix1 k)) (fun k => x2 (ix1 k))
          (fun d k => x3 (ix2 d k)) (fun d => x4 (ix1 d)) (fun c d => x5 (ix2 c d)) (fun c => x6 (ix1 c)) c := by
  rw [val_main_v33_apply, val_main_v32_apply, val_main_v29_apply, val_main_v31_apply, lane_of_entry31,
    val_main_v30_apply, vec_of_lane30]
  simp only [left29, right29, hidden_at]
  rfl

/-- The reference's result is the feed-forward layer of its seven arguments. -/
theorem result_eq : val_main_v33 (F := Ideal) x0 x1 x2 x3 x4 x5 x6 = ffn x0 x1 x2 x3 x4 x5 x6 := by
  funext i
  obtain ⟨b, t, c, rfl⟩ : ∃ (b : Fin 128) (t : Fin 8192) (c : Fin 16), i = ix3 b t c := ⟨i 0, i 1, i 2, eq_ix3 i⟩
  exact out_at x0 x1 x2 x3 x4 x5 x6 b t c

end Cert.ReferenceIdeal.RefRow

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibBiasDot.lean ====
/-
  A matrix product with a bias row added, read at one entry.

  The linear-layer body that many kernels share: an `M × K` by `K × N` product into the zero accumulator, plus a
  bias vector of length `N` viewed as a `1 × N` row and repeated down the `M` rows. At the ideal values its entry at
  row `p`, column `q` is the sum over `k` of the left operand at `(p, k)` times the right operand at `(k, q)`, plus
  the bias at `q`. `lin` names that whole-array function.
-/
import Idealize.ShloMosaic.Lib.ValueIdx
import Idealize.ShloMosaic.Lib.Pipeline.Value
import Idealize.ShloMosaic.PureOps.Ideal.Laws
import proofs.«157154_j36867999269234_1_alg».proof.Proof.LibPlainDot

noncomputable section

open scoped BigOperators

namespace Cert.Lib.BiasDot

open Idealize.ShloMosaic Idealize.ShloMosaic.ValueIdx

variable {M K N : Nat}

/-- The linear layer as one function of its three arrays: entry `(p, q)` is `∑ k, A (p, k) · W (k, q) + b q`. -/
def lin (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, A (ix2 (i 0) k) * W (ix2 k (i 1))) + b (ix1 (i 1))

theorem lin_apply (A : (⟨2, ![M, K]⟩ : Shape).Idx → EReal) (W : (⟨2, ![K, N]⟩ : Shape).Idx → EReal)
    (b : (⟨1, ![N]⟩ : Shape).Idx → EReal) (p : Fin M) (q : Fin N) :
    lin A W b (ix2 p q) = (∑ k : Fin K, A (ix2 p k) * W (ix2 k q)) + b (ix1 q) := rfl

/-- A vector of length `N` viewed as a `1 × N` row and repeated down `M` rows reads, at `(p, q)`, the vector at `q`. -/
theorem rowBroadcast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine (shapeCast_addUnit_apply ![N] b hc (ix2 (0 : Fin 1) q)).trans (congrArg b ?_)
    funext a
    match a with
    | ⟨0, _⟩ => rfl

/-- The product into zero plus the repeated bias row, at entry `(p, q)`. -/
theorem biasDot_apply {φ₁ φ₂ : FTy} (prec : Option ContractPrecision)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, Cert.Lib.PlainDot.matmul_zero_apply, rowBroadcast_apply]

end Cert.Lib.BiasDot

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.LibDotRows.lean ====
/-
  The host's contraction of two arrays on their last axes, entry by entry.

  For an `M × K` array `l` and an `N × K` array `r`, the contraction whose dimension numbers name the LAST axis of
  each operand as the contracted one, the first axis of each as the free one, and no batch axis, is the `M × N` array
  of the inner products of the rows: entry `(p, q)` is `∑ k, l (p, k) · r (q, k)`. At the ideal values the host's
  contraction is a plain sum over the contraction's index set of the products of the two operands' entries; that index
  set has one axis of extent `K`, so the sum is re-indexed by `k : Fin K`, and at the `k`-th contraction index the left
  operand is read at `(p, k)` and the right operand at `(q, k)`.
-/
import Idealize.ShloMosaic.Lib.ValueIdx
import Idealize.ShloMosaic.PureOps.Ideal.Laws

noncomputable section

open scoped BigOperators

namespace Cert.Lib.DotRows

open Idealize.ShloMosaic Idealize.ShloMosaic.ValueIdx

variable {M K N : Nat}

/-- The left operand's index at result entry `(p, q)` and contraction coordinate `k` is `(p, k)`. -/
theorem lhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).lhsIdx (ix2 p q)
      ((contrEquiv1 _ K rfl rfl).symm k) = ix2 p k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.lhsIdx]; rfl
  | ⟨1, _⟩ => simp [DotDims.lhsIdx]; exact ck

/-- The right operand's index at result entry `(p, q)` and contraction coordinate `k` is `(q, k)`. -/
theorem rhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).rhsIdx (ix2 p q)
      ((contrEquiv1 _ K rfl rfl).symm k) = ix2 q k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.rhsIdx]; rfl
  | ⟨1, _⟩ => simp [DotDims.rhsIdx]; exact ck

/-- The host's contraction of an `M × K` array with an `N × K` array, each on its last axis (contracting axes `[1]` and
    `[1]`, free axes `[0]` and `[0]`, no batch axis; any proof `w` that these dimension numbers are well formed), read at
    entry `(p, q)` at the ideal values: the inner product of row `p` of the left operand with row `q` of the right one. -/
theorem dotGeneral_rows_apply {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    Host.dotGeneral (⟨[1], [1], [0], [0], [], [], w⟩ : DotDims ⟨2, ![M, K]⟩ ⟨2, ![N, K]⟩ ⟨2, ![M, N]⟩) prec l r (ix2 p q)
      = ∑ k : Fin K, l (ix2 p k) * r (ix2 q k) := by
  show FloatOps.dotGeneral _ prec _ l r (ix2 p q) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [lhsIdx_rows w p q k, rhsIdx_rows w p q k]

/-- The same for the library's record of these dimension numbers. -/
theorem dotGeneral_transposedRhs_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) :=
  dotGeneral_rows_apply (DotDims.transposedRhs M K N).wf prec l r p q

end Cert.Lib.DotRows

end
-- ==== Proof.LibBlockOps.lean ====
/-
  Rank-two blocks read at an entry, at the ideal values.

  * The product into zero of an `M × K` array with an `N × K` array, each contracted on its last axis: entry `(p, q)` is
    the inner product of row `p` of the first with row `q` of the second.
  * The same product plus a `1 × N` bias row repeated down the rows: a linear layer whose weight is stored output-major.
  * A reduction along the lanes of an `M × N` array: row `p`'s maximum is the fold of `max` over its `N` entries, its
    sum their sum.
  * `M` row values set up as an `M × 1` column and repeated along `N` lanes: entry `(p, q)` is row `p`'s value.
-/
import Idealize.ShloMosaic.Lib.ValueIdx
import Idealize.ShloMosaic.Lib.ValueLayout
import Idealize.ShloMosaic.Lib.Pipeline.Value
import Idealize.ShloMosaic.PureOps.Ideal.Laws
import proofs.«157154_j36867999269234_1_alg».proof.Proof.LibDotRows

noncomputable section

open scoped BigOperators

namespace Cert.Lib.BlockOps

open Idealize.ShloMosaic Idealize.ShloMosaic.ValueIdx

variable {M K N : Nat}

/-- The product of two arrays given by rows, at entry `(p, q)`: the inner product of the two rows. -/
theorem matmul_rows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec l r
        (constant ⟨2, ![M, N]⟩ .f32 0x00000000#32) (ix2 p q)
      = ∑ k : Fin K, l (ix2 p k) * r (ix2 q k) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [Cert.Lib.DotRows.lhsIdx_rows w p q k, Cert.Lib.DotRows.rhsIdx_rows w p q k]

/-- A linear layer with the weight stored output-major, at entry `(p, q)`: `∑ k, l (p, k) · r (q, k) + b q`. -/
theorem linRows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (FloatOps.matmul (⟨[1], [1], [0], [0], [], [], w⟩ : DotDims ⟨2, ![M, K]⟩ ⟨2, ![N, K]⟩ ⟨2, ![M, N]⟩) prec l r
          (constant ⟨2, ![M, N]⟩ .f32 0x00000000#32))
        (broadcastTo ⟨2, ![M, N]⟩ (shapeCast ⟨2, ![1, N]⟩ b hc) hb) (ix2 p q)
      = (∑ k : Fin K, l (ix2 p k) * r (ix2 q k)) + b (ix2 (0 : Fin 1) q) := by
  rw [addf_apply, matmul_rows_apply, shapeCast_self, broadcastTo_1b_ab_apply]

/-- Over row `p`, the index with `k` put on the lane axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- A row's maximum: the fold of `max`, from the seed's value, over the row's entries. -/
theorem rowMax_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun k => src (ix2 p k)) := by
  rw [Ideal.multiReduction_maximumf_single]
  exact congrArg (fun f => (Finset.univ : Finset (Fin N)).fold max (FloatOps.ofBits φ acc) f)
    (funext fun k => congrArg src (lift_row h p k))

/-- A row's sum. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_row h p k)

/-- `M` row values as an `M × 1` column repeated along `N` lanes: at `(p, q)`, row `p`'s value. -/
theorem colSpread_apply {α : Type} (v : (⟨1, ![M]⟩ : Shape).Idx → α) (hc : (⟨1, ![M]⟩ : Shape).ShapeCasts ⟨2, ![M, 1]⟩)
    (hb : (⟨2, ![M, 1]⟩ : Shape).Broadcasts ⟨2, ![M, N]⟩) (p : Fin M) (q : Fin N) :
    broadcastTo ⟨2, ![M, N]⟩ (shapeCast ⟨2, ![M, 1]⟩ v hc) hb (ix2 p q) = v (ix1 p) := by
  refine (broadcastTo_apply _ hb (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine shapeCast_apply v hc (ix2 p (0 : Fin 1)) (ix1 p) ?_
    rw [Shape.rowMajor_val_one, Shape.rowMajor_val_two]
    show p.val = p.val * 1 + 0
    omega

end Cert.Lib.BlockOps

end
-- ==== Proof.BlockRow.lean ====
/-
  What one grid point's body stores, read at an entry: the feed-forward layer of `FfnRow` at that row of the block.

  The body works on a block of 65536 rows of sixteen lanes. Every step of it is either entry by entry, or along
  one row: the lane sum of a row, a value per row set up as a column and spread back over the lanes, a parameter
  vector set up as a row and repeated down the rows, and a matrix product with a weight block held whole, whose
  entry `(p, q)` reads row `p` of the left operand only. So the stored block at `(p, q)` depends on row `p` of the
  input block alone, and is the layer's value at that row.

  The payload is cut into four stages — the centred block, the normalised block, the hidden block, the projection —
  each a function of the arrays it is computed from and each read at an entry; the payload the body stores is their
  composition with the residual and the last bias added (`stored_apply`). The weight blocks are the ones the kernel
  is handed, input-major: `w1t (k, d)`, `w2t (d, q)`.
-/
import proofs.«157154_j36867999269234_1_alg».proof.Proof.Gen.KernelIdeal.Skeleton
import proofs.«157154_j36867999269234_1_alg».proof.Proof.FfnRow
import proofs.«157154_j36867999269234_1_alg».proof.Proof.LibPlainDot
import proofs.«157154_j36867999269234_1_alg».proof.Proof.LibBiasDot
import proofs.«157154_j36867999269234_1_alg».proof.Proof.LibColumn
import proofs.«157154_j36867999269234_1_alg».proof.Proof.LibBlockOps
import Idealize.ShloMosaic.Lib.ValueIdx
import Idealize.ShloMosaic.Lib.Pipeline.Value
import Idealize.ShloMosaic.PureOps.Ideal.Laws

noncomputable section

open scoped BigOperators

namespace Cert.KernelIdeal.BlockRow

open Cert.KernelIdeal Cert.KernelIdeal.Gen Idealize.ShloMosaic Idealize.ShloMosaic.ValueIdx Cert.FfnRow
open Cert.Lib

/-- A row's sum, with the seed's side condition spelt as the body prints it (the zero word is the sum's neutral word). -/
theorem laneSum_apply (v : FVec Ideal S65536x16 .f32) (hr : S65536x16.Reduces [1] S65536) (hφ : FKind.Formats .f32)
    (hacc : (0x00000000#32 : BitVec 32) = 0x00000000#32) (p : Fin 65536) :
    multiReduction .add [1] S65536 v 0x00000000#32 hr hφ hacc (ix1 p) = ∑ k : Fin 16, v (ix2 p k) :=
  BlockOps.rowSum_apply (M := 65536) (N := 16) v 0x00000000#32 hr hφ hacc p

/-- The reciprocal square root of an array is taken entry by entry. -/
theorem rsqrt_apply {s : Shape} (v : FVec Ideal s .f32) (i : s.Idx) : rsqrt v i = Ideal.rsqrt (v i) := rfl

/-! ## The centred block -/

section Stages

variable (x : FVec Ideal S65536x16 .f32)
  (hr : S65536x16.Reduces [1] S65536) (hc : S65536.ShapeCasts S65536x1) (hb : S65536x1.Broadcasts S65536x16)

/-- The block with each row's mean taken off: the lane sums as a column, divided by sixteen, spread over the lanes. -/
def cen : FVec Ideal S65536x16 .f32 :=
  subf x (broadcastTo S65536x16
    (divf (shapeCast S65536x1 (multiReduction .add [1] S65536 x 0x00000000#32 hr (.inl rfl) rfl) hc)
      (broadcast S65536x1 (Scalar.ofBits .f32 0x41800000#32))) hb)

theorem cen_apply (p : Fin 65536) (k : Fin 16) :
    cen x hr hc hb (ix2 p k) = centred (fun k => x (ix2 p k)) k := by
  unfold cen
  rw [subf_apply, Column.colBroadcast_apply, divf_apply, Column.col_apply, laneSum_apply]
  rfl

/-- The column of the rows' scale factors, `rsqrt (variance + ε)`. -/
def scale : FVec Ideal S65536x1 .f32 :=
  rsqrt (addf
    (divf (shapeCast S65536x1 (multiReduction .add [1] S65536 (mulf (cen x hr hc hb) (cen x hr hc hb)) 0x00000000#32 hr (.inl rfl) rfl) hc)
      (broadcast S65536x1 (Scalar.ofBits .f32 0x41800000#32)))
    (broadcast S65536x1 (Scalar.ofBits .f32 0x3727C5AC#32)))

theorem scale_apply (p : Fin 65536) :
    scale x hr hc hb (ix2 p (0 : Fin 1)) = Ideal.rsqrt (variance (fun k => x (ix2 p k)) + eps) := by
  unfold scale
  rw [rsqrt_apply, addf_apply, divf_apply, Column.col_apply, laneSum_apply]
  simp only [mulf_apply, cen_apply]
  rfl

/-! ## The normalised block -/

variable (g bt : FVec Ideal S16 .f32) (hg : S16.ShapeCasts S1x16) (hgb : S1x16.Broadcasts S65536x16)

/-- The normalised block: centred, scaled row by row, scaled lane by lane by `g`, shifted lane by lane by `bt`. -/
def nrm : FVec Ideal S65536x16 .f32 :=
  addf (mulf (mulf (cen x hr hc hb) (broadcastTo S65536x16 (scale x hr hc hb) hb))
      (broadcastTo S65536x16 (shapeCast S1x16 g hg) hgb))
    (broadcastTo S65536x16 (shapeCast S1x16 bt hg) hgb)

theorem nrm_apply (p : Fin 65536) (k : Fin 16) :
    nrm x hr hc hb g bt hg hgb (ix2 p k)
      = normed (fun k => x (ix2 p k)) (fun k => g (ix1 k)) (fun k => bt (ix1 k)) k := by
  unfold nrm
  rw [addf_apply, mulf_apply, mulf_apply, cen_apply, Column.colBroadcast_apply, scale_apply,
    BiasDot.rowBroadcast_apply, BiasDot.rowBroadcast_apply]
  rfl

end Stages

/-! ## The hidden block and the projection -/

/-- The hidden block of a block `y`: its product with the weight block, plus the bias row, cut off at zero. -/
def hid (y : FVec Ideal S65536x16 .f32) (w1t : FVec Ideal S16x64 .f32) (b1 : FVec Ideal S64 .f32)
    (hw : S16x64.ShapeCasts S16x64) (h1 : S64.ShapeCasts S1x64) (hb1 : S1x64.Broadcasts S65536x64) :
    FVec Ideal S65536x64 .f32 :=
  maximumf
    (addf (matmul dot_S65536x16_S16x64_S65536x64_1_0_0_1_n_n none y (shapeCast S16x64 w1t hw) (constant S65536x64 .f32 0x00000000#32))
      (broadcastTo S65536x64 (shapeCast S1x64 b1 h1) hb1))
    (broadcast S65536x64 (Scalar.ofBits .f32 0x00000000#32))

theorem hid_apply (y : FVec Ideal S65536x16 .f32) (w1t : FVec Ideal S16x64 .f32) (b1 : FVec Ideal S64 .f32)
    (hw : S16x64.ShapeCasts S16x64) (h1 : S64.ShapeCasts S1x64) (hb1 : S1x64.Broadcasts S65536x64)
    (p : Fin 65536) (d : Fin 64) :
    hid y w1t b1 hw h1 hb1 (ix2 p d) = max ((∑ k : Fin 16, y (ix2 p k) * w1t (ix2 k d)) + b1 (ix1 d)) floor0 := by
  unfold hid
  rw [maximumf_apply, shapeCast_self]
  show max (addf (FloatOps.matmul (DotDims.plain 65536 16 64) none y w1t (constant ⟨2, ![65536, 64]⟩ .f32 0x00000000#32))
      (broadcastTo ⟨2, ![65536, 64]⟩ (shapeCast ⟨2, ![1, 64]⟩ b1 h1) hb1) (ix2 p d)) floor0 = _
  rw [BiasDot.biasDot_apply]

/-- The projection of a hidden block back to sixteen lanes: its product with the second weight block. -/
def prj (h : FVec Ideal S65536x64 .f32) (w2t : FVec Ideal S64x16 .f32) (hw : S64x16.ShapeCasts S64x16) :
    FVec Ideal S65536x16 .f32 :=
  matmul dot_S65536x64_S64x16_S65536x16_1_0_0_1_n_n none h (shapeCast S64x16 w2t hw) (constant S65536x16 .f32 0x00000000#32)

theorem prj_apply (h : FVec Ideal S65536x64 .f32) (w2t : FVec Ideal S64x16 .f32) (hw : S64x16.ShapeCasts S64x16)
    (p : Fin 65536) (q : Fin 16) :
    prj h w2t hw (ix2 p q) = ∑ d : Fin 64, h (ix2 p d) * w2t (ix2 d q) := by
  unfold prj
  rw [shapeCast_self]
  exact PlainDot.matmul_zero_apply (M := 65536) (K := 64) (N := 16) none h w2t p q

/-! ## The stored block -/

variable (x : FVec Ideal S65536x16 .f32) (g bt : FVec Ideal S16 .f32) (w1t : FVec Ideal S16x64 .f32)
  (b1 : FVec Ideal S64 .f32) (w2t : FVec Ideal S64x16 .f32) (b2 : FVec Ideal S16 .f32)

/-- The body's matrix-product payload is the four stages composed. -/
theorem pay3_eq :
    k0_pay3 (F := Ideal) x g bt w1t b1 w2t
      = prj (hid (nrm (shapeCast S65536x16 x shapeCasts_S65536x16_S65536x16) reduces_S65536x16_S65536 shapeCasts_S65536_S65536x1
            broadcasts_S65536x1_S65536x16 g bt shapeCasts_S16_S1x16 broadcasts_S1x16_S65536x16)
          w1t b1 shapeCasts_S16x64_S16x64 shapeCasts_S64_S1x64 broadcasts_S1x64_S65536x64)
        w2t shapeCasts_S64x16_S64x16 := rfl

/-- The hidden block of the body, at `(p, d)`: unit `d` of the hidden layer at row `p`. -/
theorem hidden_apply (hr : S65536x16.Reduces [1] S65536)
    (hc : S65536.ShapeCasts S65536x1) (hb : S65536x1.Broadcasts S65536x16) (hg : S16.ShapeCasts S1x16)
    (hgb : S1x16.Broadcasts S65536x16) (hw : S16x64.ShapeCasts S16x64) (h1 : S64.ShapeCasts S1x64)
    (hb1 : S1x64.Broadcasts S65536x64) (p : Fin 65536) (d : Fin 64) :
    hid (nrm x hr hc hb g bt hg hgb) w1t b1 hw h1 hb1 (ix2 p d)
      = hidden (fun k => x (ix2 p k)) (fun k => g (ix1 k)) (fun k => bt (ix1 k)) (fun d k => w1t (ix2 k d))
          (fun d => b1 (ix1 d)) d := by
  rw [hid_apply]
  simp only [nrm_apply]
  rfl

/-- THE STORED BLOCK at `(p, q)`: entry `q` of the layer's value at row `p` of the input block, with the weight
    blocks read input-major. -/
theorem stored_apply (p : Fin 65536) (q : Fin 16) :
    k0_pay1 (F := Ideal) (k0_pay2 (F := Ideal) x) (k0_pay3 (F := Ideal) x g bt w1t b1 w2t) (k0_pay4 (F := Ideal) b2) (ix2 p q)
      = out (fun k => x (ix2 p k)) (fun k => g (ix1 k)) (fun k => bt (ix1 k)) (fun d k => w1t (ix2 k d))
          (fun d => b1 (ix1 d)) (fun c d => w2t (ix2 d c)) (fun c => b2 (ix1 c)) q := by
  rw [pay3_eq]
  unfold k0_pay1 k0_pay2 k0_pay4
  dsimp only
  rw [addf_apply, addf_apply, shapeCast_self, prj_apply, BiasDot.rowBroadcast_apply]
  simp only [hidden_apply]
  rfl

end Cert.KernelIdeal.BlockRow

end
-- ==== Proof.LibReshape.lean ====
/-
  Row-major reshapes between ranks two, three and four, read at an index.

  A reshape keeps the row-major position of every entry. Merging the two leading axes of an `a × b × c` array
  gives an `(a·b) × c` array whose row `i·b + j` is the old `(i, j)`; splitting goes the other way; and a rank-four
  array re-read at rank three holds, at each index, the entry with the same row-major position.
-/
import Idealize.ShloMosaic.Lib.ValueIdx
import Idealize.ShloMosaic.Lib.Pipeline.Value

noncomputable section

namespace Cert.Lib.Reshape

open Idealize.ShloMosaic Idealize.ShloMosaic.ValueIdx

variable {α : Type}

/-- Merging the two leading axes: row `r = i·b + j`, column `k` of the result is the operand at `(i, j, k)`. -/
theorem merge_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- Splitting the leading axis: entry `(i, j, k)` of the result is the operand at row `r = i·b + j`, column `k`. -/
theorem split_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A rank-four array re-read at rank three: entry `(i, l, e)` of the result is the operand at the index
    `(i', h, p, d)` with the same row-major position. -/
theorem four_three_apply {a0 a1 a2 a3 b0 b1 b2 : ℕ} (x : (⟨4, ![a0, a1, a2, a3]⟩ : Shape).Idx → α)
    (hc : (⟨4, ![a0, a1, a2, a3]⟩ : Shape).ShapeCasts ⟨3, ![b0, b1, b2]⟩)
    (i : Fin b0) (l : Fin b1) (e : Fin b2) (i' : Fin a0) (h : Fin a1) (p : Fin a2) (d : Fin a3)
    (hpos : ((i'.val * a1 + h.val) * a2 + p.val) * a3 + d.val = (i.val * b1 + l.val) * b2 + e.val) :
    shapeCast ⟨3, ![b0, b1, b2]⟩ x hc (ix3 i l e) = x (ix4 i' h p d) :=
  shapeCast_apply x hc _ _ (by
    rw [Shape.rowMajor_val_four, Shape.rowMajor_val_three]
    exact hpos)

end Cert.Lib.Reshape

end
-- ==== Proof.RowsArray.lean ====
/-
  The feed-forward layer over a flat array of rows, and its return to the `128 × 8192 × 16` array.

  The kernel is handed the input with its two leading axes merged — `1048576 = 128 · 8192` rows of sixteen —
  and the two weight matrices transposed, input-major. `ffnRows` is the layer over such a flat array: entry
  `(r, q)` is entry `q` of the layer's value at row `r`, the weights read as `W1 (k, d)` and `W2 (d, c)`.

  A reshape keeps row-major positions, so row `r = b · 8192 + t` of the merged array is row `(b, t)` of the
  original one, and a transposed matrix at `(k, d)` is the matrix at `(d, k)`. Hence the flat layer of the
  merged input and the transposed weights, split back into `128 × 8192 × 16`, is `FfnRow.ffn` of the original
  arrays (`split_ffnRows`).
-/
import Idealize.ShloMosaic.Lib.ValueIdx
import Idealize.ShloMosaic.Lib.Pipeline.Value
import proofs.«157154_j36867999269234_1_alg».proof.Proof.FfnRow
import proofs.«157154_j36867999269234_1_alg».proof.Proof.LibReshape

noncomputable section

open scoped BigOperators

namespace Cert.FfnRows

open Idealize.ShloMosaic Idealize.ShloMosaic.ValueIdx Cert.FfnRow Cert.Lib

/-- The layer over a flat array of 1048576 rows, the weights input-major. -/
def ffnRows (X : (⟨2, ![1048576, 16]⟩ : Shape).Idx → EReal) (g bt : (⟨1, ![16]⟩ : Shape).Idx → EReal)
    (W1 : (⟨2, ![16, 64]⟩ : Shape).Idx → EReal) (b1 : (⟨1, ![64]⟩ : Shape).Idx → EReal)
    (W2 : (⟨2, ![64, 16]⟩ : Shape).Idx → EReal) (b2 : (⟨1, ![16]⟩ : Shape).Idx → EReal) :
    (⟨2, ![1048576, 16]⟩ : Shape).Idx → EReal :=
  fun i => out (fun k => X (ix2 (i 0) k)) (fun k => g (ix1 k)) (fun k => bt (ix1 k))
    (fun d k => W1 (ix2 k d)) (fun d => b1 (ix1 d)) (fun c d => W2 (ix2 d c)) (fun c => b2 (ix1 c)) (i 1)

theorem ffnRows_apply (X : (⟨2, ![1048576, 16]⟩ : Shape).Idx → EReal) (g bt : (⟨1, ![16]⟩ : Shape).Idx → EReal)
    (W1 : (⟨2, ![16, 64]⟩ : Shape).Idx → EReal) (b1 : (⟨1, ![64]⟩ : Shape).Idx → EReal)
    (W2 : (⟨2, ![64, 16]⟩ : Shape).Idx → EReal) (b2 : (⟨1, ![16]⟩ : Shape).Idx → EReal)
    (r : Fin 1048576) (q : Fin 16) :
    ffnRows X g bt W1 b1 W2 b2 (ix2 r q)
      = out (fun k => X (ix2 r k)) (fun k => g (ix1 k)) (fun k => bt (ix1 k))
          (fun d k => W1 (ix2 k d)) (fun d => b1 (ix1 d)) (fun c d => W2 (ix2 d c)) (fun c => b2 (ix1 c)) q := rfl

/-- A transposed matrix at `(i, j)` is the matrix at `(j, i)`. -/
theorem swap_apply {α : Type} {a b : Nat} (w : (⟨2, ![a, b]⟩ : Shape).Idx → α)
    (h : (⟨2, ![a, b]⟩ : Shape).Transposes [1, 0] ⟨2, ![b, a]⟩) (i : Fin b) (j : Fin a) :
    transpose ⟨2, ![b, a]⟩ [1, 0] w h (ix2 i j) = w (ix2 j i) :=
  transpose_apply [1, 0] w h (ix2 i j) (ix2 j i) (fun c => by
    match c with
    | ⟨0, _⟩ => rfl
    | ⟨1, _⟩ => rfl)

/-- The flat layer of the merged input and the transposed weights, split back, is the layer of the original arrays. -/
theorem split_ffnRows (x : (⟨3, ![128, 8192, 16]⟩ : Shape).Idx → EReal) (g bt : (⟨1, ![16]⟩ : Shape).Idx → EReal)
    (w1 : (⟨2, ![64, 16]⟩ : Shape).Idx → EReal) (b1 : (⟨1, ![64]⟩ : Shape).Idx → EReal)
    (w2 : (⟨2, ![16, 64]⟩ : Shape).Idx → EReal) (b2 : (⟨1, ![16]⟩ : Shape).Idx → EReal)
    (hm : (⟨3, ![128, 8192, 16]⟩ : Shape).ShapeCasts ⟨2, ![1048576, 16]⟩)
    (hs : (⟨2, ![1048576, 16]⟩ : Shape).ShapeCasts ⟨3, ![128, 8192, 16]⟩)
    (ht1 : (⟨2, ![64, 16]⟩ : Shape).Transposes [1, 0] ⟨2, ![16, 64]⟩)
    (ht2 : (⟨2, ![16, 64]⟩ : Shape).Transposes [1, 0] ⟨2, ![64, 16]⟩) :
    shapeCast ⟨3, ![128, 8192, 16]⟩
        (ffnRows (shapeCast ⟨2, ![1048576, 16]⟩ x hm) g bt (transpose ⟨2, ![16, 64]⟩ [1, 0] w1 ht1) b1
          (transpose ⟨2, ![64, 16]⟩ [1, 0] w2 ht2) b2) hs
      = ffn x g bt w1 b1 w2 b2 := by
  funext i
  obtain ⟨b, t, c, rfl⟩ : ∃ (b : Fin 128) (t : Fin 8192) (c : Fin 16), i = ix3 b t c := ⟨i 0, i 1, i 2, eq_ix3 i⟩
  have hr : b.val * 8192 + t.val < 1048576 := by have := b.isLt; have := t.isLt; omega
  rw [Reshape.split_apply _ hs b t c ⟨b.val * 8192 + t.val, hr⟩ rfl, ffnRows_apply, ffn_apply]
  have e1 : (fun (d : Fin 64) (k : Fin 16) => transpose ⟨2, ![16, 64]⟩ [1, 0] w1 ht1 (ix2 k d)) = fun d k => w1 (ix2 d k) :=
    funext fun d => funext fun k => swap_apply w1 ht1 k d
  have e2 : (fun (c : Fin 16) (d : Fin 64) => transpose ⟨2, ![64, 16]⟩ [1, 0] w2 ht2 (ix2 d c)) = fun c d => w2 (ix2 c d) :=
    funext fun c => funext fun d => swap_apply w2 ht2 d c
  simp only [fun k => Reshape.merge_apply x hm b t k ⟨b.val * 8192 + t.val, hr⟩ rfl]
  rw [e1, e2]

end Cert.FfnRows

end
-- ==== Proof.BlockArray.lean ====
/-
  From the blocks to the whole result: what the idealized kernel's run leaves in its result array.

  The grid has sixteen points. Point `t` is handed rows `t · 65536 … t · 65536 + 65535` of the flat input and the six
  parameter arrays whole, and writes back the same rows of the flat output. What it writes back, read at row `p` of the
  block, is the feed-forward layer at that row (`BlockRow.stored_apply`), that is, block `t` of the flat layer
  `ffnRows` of the arrays the region finds. The sixteen blocks tile the flat output, so after the region the flat
  output is `ffnRows` of those arrays. Before the region the host merges the input's two leading axes and transposes
  the two weight matrices; after it the host splits the flat output back into `128 × 8192 × 16`. So the result array
  ends at `FfnRow.ffn` of the seven arguments (`RowsArray.split_ffnRows`), and the arguments end unchanged.
-/
import proofs.«157154_j36867999269234_1_alg».proof.Proof.Gen.KernelIdeal.Frame
import proofs.«157154_j36867999269234_1_alg».proof.Proof.BlockRow
import proofs.«157154_j36867999269234_1_alg».proof.Proof.RowsArray
import Idealize.ShloMosaic.Lib.Pipeline.Value
import Idealize.ShloMosaic.Lib.StableHlo.Run

noncomputable section

namespace Cert.KernelIdeal.BlockArray

open Cert.KernelIdeal Cert.KernelIdeal.Gen Idealize.ShloMosaic Idealize.ShloMosaic.TcCoe Idealize.SL.Sem
open Idealize.ShloMosaic.ValueIdx Idealize.ShloMosaic.StableHlo Cert.FfnRow Cert.FfnRows
open Idealize.ShloMosaic.Pipeline (Dat)

variable (m : (ℓ : Loc nD τ sig) → Buf (Elt Ideal) ℓ) (ρ : Dev nD → PrngReg)

/-! ## One point's block is a block of the flat layer -/

theorem origin2 : (![0, 0] : Fin 2 → Nat) = fun _ => 0 := funext fun a => by fin_cases a <;> rfl
theorem origin1 : (![0] : Fin 1 → Nat) = fun _ => 0 := funext fun a => by fin_cases a; rfl

/-- The stored block at an entry `y` against the flat layer at an entry `i`: equal as soon as the input block's
    row through `y` is the flat input's row through `i`, the parameter blocks are the parameter arrays, and the two
    entries are on the same lane. -/
theorem stored_eq_ffnRows (x0 : FVec Ideal S65536x16 .f32) (x1 x2 : FVec Ideal S16 .f32) (x3 : FVec Ideal S16x64 .f32)
    (x4 : FVec Ideal S64 .f32) (x5 : FVec Ideal S64x16 .f32) (x6 : FVec Ideal S16 .f32)
    (X : S1048576x16.Idx → EReal) (G B : S16.Idx → EReal) (W1 : S16x64.Idx → EReal) (B1 : S64.Idx → EReal)
    (W2 : S64x16.Idx → EReal) (B2 : S16.Idx → EReal) (p : Fin 65536) (q : Fin 16) (r : Fin 1048576)
    (hx : ∀ k : Fin 16, x0 (ix2 p k) = X (ix2 r k)) (h1 : x1 = G) (h2 : x2 = B) (h3 : x3 = W1) (h4 : x4 = B1)
    (h5 : x5 = W2) (h6 : x6 = B2) :
    k0_pay1 (F := Ideal) (k0_pay2 (F := Ideal) x0) (k0_pay3 (F := Ideal) x0 x1 x2 x3 x4 x5) (k0_pay4 (F := Ideal) x6) (ix2 p q)
      = ffnRows X G B W1 B1 W2 B2 (ix2 r q) := by
  subst h1 h2 h3 h4 h5 h6
  rw [BlockRow.stored_apply, ffnRows_apply]
  simp only [hx]

/-- The printed index maps over the grid: the input's block moves with the output's down the rows, both stay on
    the one block of lanes, every parameter window stays on its one block, and the output's row block is the point. -/
theorem index_facts : ∀ t : Fin cfg0.N,
    win0_0.index t (0 : Fin 2) = win0_7.index t (0 : Fin 2) ∧ win0_0.index t (1 : Fin 2) = 0
    ∧ win0_7.index t (1 : Fin 2) = 0 ∧ win0_7.index t (0 : Fin 2) = t.val
    ∧ win0_1.index t (0 : Fin 1) = 0 ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-- The same for any entry `y` of the block and any entry `i` of the flat array on the same lane. -/
theorem stored_eq_ffnRows_at (x0 : FVec Ideal S65536x16 .f32) (x1 x2 : FVec Ideal S16 .f32) (x3 : FVec Ideal S16x64 .f32)
    (x4 : FVec Ideal S64 .f32) (x5 : FVec Ideal S64x16 .f32) (x6 : FVec Ideal S16 .f32)
    (X : S1048576x16.Idx → EReal) (G B : S16.Idx → EReal) (W1 : S16x64.Idx → EReal) (B1 : S64.Idx → EReal)
    (W2 : S64x16.Idx → EReal) (B2 : S16.Idx → EReal) (y : S65536x16.Idx) (i : S1048576x16.Idx)
    (hx : ∀ k : Fin 16, x0 (ix2 (y 0) k) = X (ix2 (i 0) k)) (hl : (y 1).val = (i 1).val)
    (h1 : x1 = G) (h2 : x2 = B) (h3 : x3 = W1) (h4 : x4 = B1) (h5 : x5 = W2) (h6 : x6 = B2) :
    k0_pay1 (F := Ideal) (k0_pay2 (F := Ideal) x0) (k0_pay3 (F := Ideal) x0 x1 x2 x3 x4 x5) (k0_pay4 (F := Ideal) x6) y
      = ffnRows X G B W1 B1 W2 B2 i := by
  obtain ⟨p, q, rfl⟩ : ∃ (p : Fin 65536) (q : Fin 16), y = ix2 p q := ⟨y 0, y 1, eq_ix2 y⟩
  obtain ⟨r, s, rfl⟩ : ∃ (r : Fin 1048576) (s : Fin 16), i = ix2 r s := ⟨i 0, i 1, eq_ix2 i⟩
  obtain rfl : q = s := Fin.ext hl
  exact stored_eq_ffnRows x0 x1 x2 x3 x4 x5 x6 X G B W1 B1 W2 B2 p q r hx h1 h2 h3 h4 h5 h6

/-- WHAT POINT `t` WRITES BACK is block `t` of the flat layer of the arrays the region finds. -/
theorem flushed_eq (c : Dev nD) (t : Fin cfg0.N) :
    (dats m 0 c).flushed 7 t = ((cfg0.win 7).blk t).view.read (Elt Ideal)
      (ffnRows (V m c main_v0) (V m c main_arg1) (V m c main_arg2) (V m c main_v1) (V m c main_arg4) (V m c main_v2)
        (V m c main_arg6)) := by
  show (cfg0.win 7).cut (grid0.coords t) ((dats m 0 c).after 7 t) = _
  rw [after0_7]
  unfold out0_7
  rw [View.canon_unit_zero origin2]
  simp only [View.ld_unit_zero (S := S65536x16) origin2, View.ld_unit_zero (S := S16) origin1,
    View.ld_unit_zero (S := S16x64) origin2, View.ld_unit_zero (S := S64) origin1, View.ld_unit_zero (S := S64x16) origin2]
  obtain ⟨e0, e1, e2, e3, e4, e5, e6, e7, e8, e9, e10, e11⟩ := index_facts t
  funext j
  refine stored_eq_ffnRows_at (iblk m c 0 t) (iblk m c 1 t) (iblk m c 2 t) (iblk m c 3 t) (iblk m c 4 t) (iblk m c 5 t)
    (iblk m c 6 t) (V m c main_v0) (V m c main_arg1) (V m c main_arg2) (V m c main_v1) (V m c main_arg4) (V m c main_v2)
    (V m c main_arg6) j (((cfg0.win 7).blk t).view.emb j) (fun k => ?_) ?_ (funext fun y => ?_) (funext fun y => ?_)
    (funext fun y => ?_) (funext fun y => ?_) (funext fun y => ?_) (funext fun y => ?_)
  · show V m c main_v0 (((cfg0.win 0).blk t).view.emb (ix2 (j 0) k)) = V m c main_v0 (ix2 ((((cfg0.win 7).blk t).view.emb j) 0) k)
    refine congrArg _ (funext fun a => Fin.ext ?_)
    match a with
    | ⟨0, _⟩ => show win0_0.index t (0 : Fin 2) * 65536 + 1 * (j 0).val = win0_7.index t (0 : Fin 2) * 65536 + 1 * (j 0).val; omega
    | ⟨1, _⟩ => show win0_0.index t (1 : Fin 2) * 16 + 1 * k.val = k.val; omega
  · show (j 1).val = win0_7.index t (1 : Fin 2) * 16 + 1 * (j 1).val
    omega
  · show V m c main_arg1 (((cfg0.win 1).blk t).view.emb y) = V m c main_arg1 y
    refine congrArg _ (funext fun a => Fin.ext ?_)
    match a with
    | ⟨0, _⟩ => show win0_1.index t (0 : Fin 1) * 16 + 1 * (y 0).val = (y 0).val; omega
  · show V m c main_arg2 (((cfg0.win 2).blk t).view.emb y) = V m c main_arg2 y
    refine congrArg _ (funext fun a => Fin.ext ?_)
    match a with
    | ⟨0, _⟩ => show win0_2.index t (0 : Fin 1) * 16 + 1 * (y 0).val = (y 0).val; omega
  · show V m c main_v1 (((cfg0.win 3).blk t).view.emb y) = V m c main_v1 y
    refine congrArg _ (funext fun a => Fin.ext ?_)
    match a with
    | ⟨0, _⟩ => show win0_3.index t (0 : Fin 2) * 16 + 1 * (y 0).val = (y 0).val; omega
    | ⟨1, _⟩ => show win0_3.index t (1 : Fin 2) * 64 + 1 * (y 1).val = (y 1).val; omega
  · show V m c main_arg4 (((cfg0.win 4).blk t).view.emb y) = V m c main_arg4 y
    refine congrArg _ (funext fun a => Fin.ext ?_)
    match a with
    | ⟨0, _⟩ => show win0_4.index t (0 : Fin 1) * 64 + 1 * (y 0).val = (y 0).val; omega
  · show V m c main_v2 (((cfg0.win 5).blk t).view.emb y) = V m c main_v2 y
    refine congrArg _ (funext fun a => Fin.ext ?_)
    match a with
    | ⟨0, _⟩ => show win0_5.index t (0 : Fin 2) * 64 + 1 * (y 0).val = (y 0).val; omega
    | ⟨1, _⟩ => show win0_5.index t (1 : Fin 2) * 16 + 1 * (y 1).val = (y 1).val; omega
  · show V m c main_arg6 (((cfg0.win 6).blk t).view.emb y) = V m c main_arg6 y
    refine congrArg _ (funext fun a => Fin.ext ?_)
    match a with
    | ⟨0, _⟩ => show win0_6.index t (0 : Fin 1) * 16 + 1 * (y 0).val = (y 0).val; omega

/-! ## The sixteen blocks tile the flat output -/

/-- An entry of the flat output is in point `t`'s block iff each coordinate is in the block's range on its axis. -/
theorem mem_blk (t : Fin cfg0.N) (i : S1048576x16.Idx) :
    i ∈ ((cfg0.win 7).blk t).view.set ↔ ∀ a : Fin 2, win0_7.index t a * S65536x16.size a ≤ (i a).val
      ∧ (i a).val < win0_7.index t a * S65536x16.size a + S65536x16.size a := by
  show i ∈ ((View.whole main_v3).slice (win0_7.rect t)).set ↔ _
  rw [View.set_slice_whole, Rect.mem_set_unit]
  exact Iff.rfl

/-- Row `r` is in the block of point `r / 65536`. -/
theorem cover (i : S1048576x16.Idx) :
    ∃ t : Fin cfg0.N, (cfg0.win 7).flush t = true ∧ i ∈ ((cfg0.win 7).blk t).view.set := by
  have hi0 : (i 0).val < 1048576 := (i 0).isLt
  have hi1 : (i 1).val < 16 := (i 1).isLt
  have hN : grid0.N = 16 := N_0
  have ht : (i 0).val / 65536 < grid0.N := by rw [hN]; omega
  obtain ⟨e0, e1, e2, e3, -⟩ := index_facts ⟨(i 0).val / 65536, ht⟩
  refine ⟨⟨(i 0).val / 65536, ht⟩, flush0_7 _, ?_⟩
  rw [mem_blk]
  intro a
  match a with
  | ⟨0, _⟩ =>
    show win0_7.index ⟨(i 0).val / 65536, ht⟩ (0 : Fin 2) * 65536 ≤ (i 0).val
      ∧ (i 0).val < win0_7.index ⟨(i 0).val / 65536, ht⟩ (0 : Fin 2) * 65536 + 65536
    have e3' : win0_7.index ⟨(i 0).val / 65536, ht⟩ (0 : Fin 2) = (i 0).val / 65536 := e3
    omega
  | ⟨1, _⟩ =>
    show win0_7.index ⟨(i 0).val / 65536, ht⟩ (1 : Fin 2) * 16 ≤ (i 1).val
      ∧ (i 1).val < win0_7.index ⟨(i 0).val / 65536, ht⟩ (1 : Fin 2) * 16 + 16
    omega

/-- THE FLAT OUTPUT after the region: the flat layer of the arrays the region finds. -/
theorem final (c : Dev nD) :
    (dats m 0 c).arrAt 7 cfg0.N
      = ffnRows (V m c main_v0) (V m c main_arg1) (V m c main_arg2) (V m c main_v1) (V m c main_arg4) (V m c main_v2)
          (V m c main_arg6) :=
  (dats m 0 c).arrAt_eq_of_cover 7 _ (fun t _ => flushed_eq m c t) cover

/-! ## The host's lines before and after the region -/

/-- The flat input the region finds: the argument with its two leading axes merged. -/
theorem found_v0 (c : Dev nD) :
    (V m c main_v0 : S1048576x16.Idx → EReal)
      = shapeCast S1048576x16 (m ((c : Thread nD τ).loc main_arg0)) shapeCasts_S128x8192x16_S1048576x16 := by
  show StableHlo.after hostOps0 (fun b => m (c, b)) (Proc.devRef .tc main_v0) = _
  after_results
  rfl

/-- The first weight block the region finds: the first weight matrix transposed. -/
theorem found_v1 (c : Dev nD) :
    (V m c main_v1 : S16x64.Idx → EReal)
      = transpose S16x64 [1, 0] (m ((c : Thread nD τ).loc main_arg3)) transposes_S64x16_S16x64_1_0 := by
  show StableHlo.after hostOps0 (fun b => m (c, b)) (Proc.devRef .tc main_v1) = _
  after_results

/-- The second weight block the region finds: the second weight matrix transposed. -/
theorem found_v2 (c : Dev nD) :
    (V m c main_v2 : S64x16.Idx → EReal)
      = transpose S64x16 [1, 0] (m ((c : Thread nD τ).loc main_arg5)) transposes_S16x64_S64x16_1_0 := by
  show StableHlo.after hostOps0 (fun b => m (c, b)) (Proc.devRef .tc main_v2) = _
  after_results

/-- The result the host's last line leaves: the flat output split back into `128 × 8192 × 16`. -/
theorem left_v4 (c : Dev nD) :
    Pipeline.afterTail₀ cfgs (dats m) 0 (V0 m) [hostOps1] c main_v4
      = shapeCast S128x8192x16 ((dats m 0 c).arrAt 7 cfg0.N) shapeCasts_S1048576x16_S128x8192x16 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = (dats m 0 c).arrAt 7 cfg0.N := Pipeline.withArrays_arr spec0 launch0.win.arr_inj c _ _ 7
  rw [e]
  rfl

/-! ## The run, read -/

/-- After the frame run the result array holds the layer of the seven arguments. -/
theorem result_eq (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v4)
      = ffn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  refine ((h c).2 main_v4 (Pipeline.mem_restRefs_of main_v4 (by decide) (by decide))).trans ((left_v4 m c).trans ?_)
  rw [final, found_v0, found_v1, found_v2, V_main_arg1, V_main_arg2, V_main_arg4, V_main_arg6]
  exact split_ffnRows _ _ _ _ _ _ _ _ _ _ _

/-- After the frame run every argument is as launched. -/
theorem kept (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (W_main_arg3 m (dats m) c),
    ((h c).1 4).trans (((dats m 0 c).arrAt_in 4 rfl _).trans ((A_eq m c 4).trans (V_main_arg4 m c))),
    ((h c).2 main_arg5 (Pipeline.mem_restRefs_of main_arg5 (by decide) (by decide))).trans (W_main_arg5 m (dats m) c),
    ((h c).1 6).trans (((dats m 0 c).arrAt_in 6 rfl _).trans ((A_eq m c 6).trans (V_main_arg6 m c)))⟩

/-- THE RUN of the idealized kernel: every weakly fair execution terminates, the result array at the feed-forward
    layer of the seven arguments, the arguments unchanged. -/
theorem run : θ_run defs (onTc (τ := τ) (main (F := Ideal))) ⟨m, fun _ => 0, ρ⟩ fun r => ∀ c : Dev nD,
      r.2.mem ((c.tc : Thread nD τ).loc main_v4)
        = ffn (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨result_eq m r h c, kept m r h c⟩) (run_main m ρ)

end Cert.KernelIdeal.BlockArray

end
-- ==== Proof.lean ====
/-
  The certificate of a pre-norm feed-forward layer: `x + fc2 (relu (fc1 (layer_norm x)))` over a
  `128 × 8192 × 16` array, rows of sixteen, a hidden layer of sixty-four.

  The kernel flattens the two leading axes, hands its body sixteen blocks of 65536 rows with the transposed weights held
  whole, and splits the flat output back; the reference applies the same operations to the whole array, contracting the
  last axis with each weight matrix's last axis. At the ideal values both compute, at every row, the one function
  `FfnRow.out` — the same operations in the same order with the same three constant words —: a change of tiling, a
  reshape and a transpose move entries without touching them, a lane reduction and the host's reduction are the same
  finite sum (the host's starts from the zero word), and a matrix product into a zero accumulator and the host's
  contraction are the same finite sum. No law of the extended reals beyond `0 + s = s` is used, so the
  precondition is never opened.

  * `FfnRow`: the layer at a row, and `ffn`, the layer over the whole array.
  * `RefRow`: the reference's last stage is `ffn` of the arguments.
  * `BlockRow`: the block one grid point stores is the layer at each of its rows.
  * `RowsArray`: the layer over the flat array, split back, is `ffn`.
  * `BlockArray`: the sixteen blocks tile the flat output; the kernel's run ends with the result at `ffn`.

  The three frames are the generated ones (the reference's is its generated run with the result dropped); the ideal
  pass rewrote nothing, so the kernel is its own idealization; and the two idealized programs end with equal results
  because both results are `ffn` of arguments that agree.
-/
import proofs.«157154_j36867999269234_1_alg».proof.Defs
import proofs.«157154_j36867999269234_1_alg».proof.Proof.Gen.Kernel
import proofs.«157154_j36867999269234_1_alg».proof.Proof.Gen.Kernel.Skeleton
import proofs.«157154_j36867999269234_1_alg».proof.Proof.Gen.Kernel.Launch
import proofs.«157154_j36867999269234_1_alg».proof.Proof.Gen.Kernel.Points
import proofs.«157154_j36867999269234_1_alg».proof.Proof.Gen.Kernel.Frame
import proofs.«157154_j36867999269234_1_alg».proof.Proof.Gen.KernelIdeal
import proofs.«157154_j36867999269234_1_alg».proof.Proof.Gen.KernelIdeal.Skeleton
import proofs.«157154_j36867999269234_1_alg».proof.Proof.Gen.KernelIdeal.Launch
import proofs.«157154_j36867999269234_1_alg».proof.Proof.Gen.KernelIdeal.Points
import proofs.«157154_j36867999269234_1_alg».proof.Proof.Gen.KernelIdeal.Frame
import proofs.«157154_j36867999269234_1_alg».proof.Proof.Gen.ReferenceIdeal
import proofs.«157154_j36867999269234_1_alg».proof.Proof.Gen.ReferenceIdeal.Run
import proofs.«157154_j36867999269234_1_alg».proof.Proof.Gen.ReferenceIdeal.Read
import proofs.«157154_j36867999269234_1_alg».proof.Proof.Gen.Pre_finite_inputs
import proofs.«157154_j36867999269234_1_alg».proof.Proof.RefRow
import proofs.«157154_j36867999269234_1_alg».proof.Proof.BlockArray
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the result array at the feed-forward layer of their arguments, and the arguments
    agree. -/
theorem algebraic : Cert.algebraic_KernelIdeal_ReferenceIdeal := by
  intro m ρ m' ρ' _ hagree
  refine ⟨_, Cert.KernelIdeal.BlockArray.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v33_eq, Cert.ReferenceIdeal.RefRow.result_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
